-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S600000x128 .f32) (main_arg2 : IVec S2x600000 32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x256 : Shape := ⟨2, ![1, 256]⟩
abbrev S1x128 : Shape := ⟨2, ![1, 128]⟩
abbrev S4800x128 : Shape := ⟨2, ![4800, 128]⟩
abbrev S4800x256 : Shape := ⟨2, ![4800, 256]⟩
abbrev S4800 : Shape := ⟨1, ![4800]⟩
abbrev S4800x1 : Shape := ⟨2, ![4800, 1]⟩

abbrev nBuf : Space → Nat
  | .hbm => 44
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x128, .bf16⟩
  | .hbm, ⟨35, _⟩ => ⟨S128x256, .bf16⟩
  | .hbm, ⟨36, _⟩ => ⟨S256x128, .bf16⟩
  | .hbm, ⟨37, _⟩ => ⟨S128x256, .bf16⟩
  | .hbm, ⟨38, _⟩ => ⟨S256x128, .bf16⟩
  | .hbm, ⟨39, _⟩ => ⟨S1x256, .f32⟩
  | .hbm, ⟨40, _⟩ => ⟨S1x128, .f32⟩
  | .hbm, ⟨41, _⟩ => ⟨S1x256, .f32⟩
  | .hbm, ⟨42, _⟩ => ⟨S1x128, .f32⟩
  | .hbm, ⟨43, _⟩ => ⟨S600000x128, .f32⟩
  | .local _ .vmem, ⟨0, _⟩ => ⟨S4800x128, .bf16⟩
  | .local _ .vmem, ⟨1, _⟩ => ⟨S4800x128, .bf16⟩
  | .local _ .vmem, ⟨2, _⟩ => ⟨S4800x128, .f32⟩
  | .local _ .vmem, ⟨3, _⟩ => ⟨S4800x128, .f32⟩
  | .local _ .vmem, ⟨4, _⟩ => ⟨S128x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S4800x128, .f32⟩
  | .local _ .vmem, ⟨13, _⟩ => ⟨S4800x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4800x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bitsLt_bf16_f32 : FTy.bits .bf16 < FTy.bits .f32
  shapeCasts_S256_S1x256 : S256.ShapeCasts S1x256
  shapeCasts_S128_S1x128 : S128.ShapeCasts S1x128
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4800x256 : S1x256.Broadcasts S4800x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4800x128 : S1x128.Broadcasts S4800x128
  reduces_S4800x128_S4800 : S4800x128.Reduces [1] S4800
  shapeCasts_S4800_S4800x1 : S4800.ShapeCasts S4800x1
  broadcasts_S4800x1_S4800x128 : S4800x1.Broadcasts S4800x128
  gather_S50000x128_S600000x1_S600000x128_1_0_n_n_0_1_1128_wf : GatherDims.WF S50000x128 S600000x1 S600000x128 [1] [0] [] [0] [] 1 ![1, 128]
  dot_S4800x128_S128x256_S4800x256_1_0_0_1_n_n_wf : DotDims.WF S4800x128 S128x256 S4800x256 [1] [0] [0] [1] [] []
  dot_S4800x256_S256x128_S4800x128_1_0_0_1_n_n_wf : DotDims.WF S4800x256 S256x128 S4800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x128.size a ≤ S600000x128.size a
  hwx0_0 : ∀ i : grid0.Coords, EltTy.bits .bf16 = 32 ∨ (Rect.block (s := S600000x128) S4800x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x128.size a ≤ S600000x128.size a
  hwx0_1 : ∀ i : grid0.Coords, EltTy.bits .f32 = 32 ∨ (Rect.block (s := S600000x128) S4800x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4800x128.size a ≤ S600000x128.size a
  hwx0_10 : ∀ i : grid0.Coords, EltTy.bits .f32 = 32 ∨ (Rect.block (s := S600000x128) S4800x128.size (cc0_transform_10 i) (hinb0_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4800x128_S128x256_S4800x256_1_0_0_1_n_n : DotDims S4800x128 S128x256 S4800x256 where
  lhsContracting := [1]
  rhsContracting := [0]
  lhsNonContracting := [0]
  rhsNonContracting := [1]
  lhsBatch := []
  rhsBatch := []
  wf := dot_S4800x128_S128x256_S4800x256_1_0_0_1_n_n_wf
def dot_S4800x256_S256x128_S4800x128_1_0_0_1_n_n : DotDims S4800x256 S256x128 S4800x128 where
  lhsContracting := [1]
  rhsContracting := [0]
  lhsNonContracting := [0]
  rhsNonContracting := [1]
  lhsBatch := []
  rhsBatch := []
  wf := dot_S4800x256_S256x128_S4800x128_1_0_0_1_n_n_wf

abbrev win0_0 : Pipeline.Window sig grid0 :=
  Pipeline.Window.ofSpec (Memref.whole main_v19) S4800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S4800x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x256 : Shape := ⟨2, ![1, 256]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x256, .f32⟩
  | .hbm, ⟨35, _⟩ => ⟨S1x256, .f32⟩
  | .hbm, ⟨36, _⟩ => ⟨S600000x256, .f32⟩
  | .hbm, ⟨37, _⟩ => ⟨S600000x256, .f32⟩
  | .hbm, ⟨38, _⟩ => ⟨S_, .f32⟩
  | .hbm, ⟨39, _⟩ => ⟨S600000x256, .f32⟩
  | .hbm, ⟨40, _⟩ => ⟨S600000x256, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S600000x256, .f32⟩
  | .hbm, ⟨46, _⟩ => ⟨S1x256, .f32⟩
  | .hbm, ⟨47, _⟩ => ⟨S600000x256, .f32⟩
  | .hbm, ⟨48, _⟩ => ⟨S600000x256, .f32⟩
  | .hbm, ⟨49, _⟩ => ⟨S_, .f32⟩
  | .hbm, ⟨50, _⟩ => ⟨S600000x256, .f32⟩
  | .hbm, ⟨51, _⟩ => ⟨S600000x256, .f32⟩
  | .hbm, ⟨52, _⟩ => ⟨S600000x128, .f32⟩
  | .hbm, ⟨53, _⟩ => ⟨S1x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S600000, .f32⟩
  | .hbm, ⟨59, _⟩ => ⟨S600000x1, .f32⟩
  | .hbm, ⟨60, _⟩ => ⟨S_, .f32⟩
  | .hbm, ⟨61, _⟩ => ⟨S600000x1, .f32⟩
  | .hbm, ⟨62, _⟩ => ⟨S600000x1, .f32⟩
  | .hbm, ⟨63, _⟩ => ⟨S600000x128, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S600000, .f32⟩
  | .hbm, ⟨68, _⟩ => ⟨S600000x1, .f32⟩
  | .hbm, ⟨69, _⟩ => ⟨S_, .f32⟩
  | .hbm, ⟨70, _⟩ => ⟨S600000x1, .f32⟩
  | .hbm, ⟨71, _⟩ => ⟨S600000x1, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S600000x1, .f32⟩
  | .hbm, ⟨76, _⟩ => ⟨S600000x1, .f32⟩
  | .hbm, ⟨77, _⟩ => ⟨S600000x1, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S600000x128, .f32⟩
  | .hbm, ⟨82, _⟩ => ⟨S600000x128, .f32⟩
  | .hbm, ⟨83, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S600000x128 : S_.BroadcastsInDim S600000x128 (![] : Fin 0 → Fin S600000x128.rank)
  gather_S50000x128_S600000x1_S600000x128_1_0_n_n_0_1_1128_wf : GatherDims.WF S50000x128 S600000x1 S600000x128 [1] [0] [] [0] [] 1 ![1, 128]
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.EdgeUpdate.lean ====
/-
  The edge update, one edge at a time, on the extended reals.

  An edge carries a row `x` of 128 numbers (the sum of its two end nodes' features) and a row `r` of 128 numbers
  (its own features). Each row goes through its own two-layer perceptron — 128 to 256 channels, a rectifier, 256 back
  to 128 channels, a bias after each layer —; the two results are added channel by channel into a row `h`; `h` is
  normalised along its 128 channels (its mean taken off, then scaled by the reciprocal square root of its biased
  variance plus a small constant), rectified, and added to `r`.

  Everything is a function of coordinates: a matrix is `Fin rows → Fin columns → EReal`, a row `Fin 128 → EReal`.
  The three float constants stay as the words the programs print; only the zero word is ever evaluated.
-/
import Idealize.ShloMosaic.PureOps.Ideal
import Idealize.ShloMosaic.Lib.ValueIdx

noncomputable section

open scoped BigOperators

namespace Cert.EdgeUpdate

open Idealize.ShloMosaic

/-- The float zero the rectifiers compare with. -/
abbrev zeroW : EReal := Ideal.ofBits .f32 0x00000000#32
/-- The float 128, the number of channels a mean divides by. -/
abbrev widthW : EReal := Ideal.ofBits .f32 0x43000000#32
/-- The small constant added to the variance. -/
abbrev epsW : EReal := Ideal.ofBits .f32 0x3727C5AC#32

/-- The hidden layer: channel `j` of the rectified affine image of the row `x`. -/
def hidden (W1 : Fin 128 → Fin 256 → EReal) (b1 : Fin 256 → EReal) (x : Fin 128 → EReal) (j : Fin 256) : EReal :=
  max ((∑ k : Fin 128, x k * W1 k j) + b1 j) zeroW

/-- The second layer without its bias: channel `c` of the hidden row `y` times the matrix `W2`. -/
def project (W2 : Fin 256 → Fin 128 → EReal) (y : Fin 256 → EReal) (c : Fin 128) : EReal :=
  ∑ j : Fin 256, y j * W2 j c

/-- The perceptron: hidden layer, second layer, second bias. -/
def mlp (W1 : Fin 128 → Fin 256 → EReal) (b1 : Fin 256 → EReal) (W2 : Fin 256 → Fin 128 → EReal)
    (b2 : Fin 128 → EReal) (x : Fin 128 → EReal) (c : Fin 128) : EReal :=
  project W2 (hidden W1 b1 x) c + b2 c

/-- The mean of a row's 128 channels. -/
def mean (h : Fin 128 → EReal) : EReal := Ideal.div (∑ c : Fin 128, h c) widthW

/-- Channel `c` of the row `h` normalised along its channels and rectified. -/
def normRelu (h : Fin 128 → EReal) (c : Fin 128) : EReal :=
  max ((h c - mean h) * Ideal.rsqrt (mean (fun c' => (h c' - mean h) * (h c' - mean h)) + epsW)) zeroW

/-- The combined row of an edge: the two perceptrons' results added channel by channel (the second perceptron's
    bias joins its product first). -/
def combined (W1a : Fin 128 → Fin 256 → EReal) (b1a : Fin 256 → EReal) (W2a : Fin 256 → Fin 128 → EReal)
    (b2a : Fin 128 → EReal) (W1b : Fin 128 → Fin 256 → EReal) (b1b : Fin 256 → EReal)
    (W2b : Fin 256 → Fin 128 → EReal) (b2b : Fin 128 → EReal) (x r : Fin 128 → EReal) (c : Fin 128) : EReal :=
  mlp W1a b1a W2a b2a x c + mlp W1b b1b W2b b2b r c

/-- The updated edge row: the edge's own features plus the normalised, rectified combined row. -/
def edgeOut (W1a : Fin 128 → Fin 256 → EReal) (b1a : Fin 256 → EReal) (W2a : Fin 256 → Fin 128 → EReal)
    (b2a : Fin 128 → EReal) (W1b : Fin 128 → Fin 256 → EReal) (b1b : Fin 256 → EReal)
    (W2b : Fin 256 → Fin 128 → EReal) (b2b : Fin 128 → EReal) (x r : Fin 128 → EReal) (c : Fin 128) : EReal :=
  r c + normRelu (combined W1a b1a W2a b2a W1b b1b W2b b2b x r) c

/-- The edge update depends on its matrices, biases, rows and channel only through their values. -/
theorem edgeOut_congr {W1a W1a' : Fin 128 → Fin 256 → EReal} {b1a b1a' : Fin 256 → EReal}
    {W2a W2a' : Fin 256 → Fin 128 → EReal} {b2a b2a' : Fin 128 → EReal} {W1b W1b' : Fin 128 → Fin 256 → EReal}
    {b1b b1b' : Fin 256 → EReal} {W2b W2b' : Fin 256 → Fin 128 → EReal} {b2b b2b' : Fin 128 → EReal}
    {x x' r r' : Fin 128 → EReal} {c c' : Fin 128}
    (h1 : W1a = W1a') (h2 : b1a = b1a') (h3 : W2a = W2a') (h4 : b2a = b2a') (h5 : W1b = W1b') (h6 : b1b = b1b')
    (h7 : W2b = W2b') (h8 : b2b = b2b') (hx : x = x') (hr : r = r') (hc : c = c') :
    edgeOut W1a b1a W2a b2a W1b b1b W2b b2b x r c = edgeOut W1a' b1a' W2a' b2a' W1b' b1b' W2b' b2b' x' r' c' := by
  subst h1 h2 h3 h4 h5 h6 h7 h8 hx hr hc
  rfl

end Cert.EdgeUpdate

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelRow.lean ====
/-
  What the kernel body leaves in one block of 4800 edges, read at one entry: the edge update of that block's row.

  The body multiplies the block of summed node features by the first perceptron's matrices and the block of edge
  features by the second's, adds the biases (each a one-row array spread over the block's rows), rectifies between the
  layers, adds the two results, and normalises each row by two sums along its 128 channels. Read at row `p` and
  channel `c`, every matrix product is a sum over the contracted coordinate, every row sum a sum over the channels, and
  what is left is `edgeOut` of row `p` of the two blocks.
-/
import proofs.«155111_j81484119539777_2_alg».proof.Proof.Gen.KernelIdeal.Value
import proofs.«155111_j81484119539777_2_alg».proof.Proof.EdgeUpdate
import proofs.«155111_j81484119539777_2_alg».proof.Proof.LibMatmulAt
import proofs.«155111_j81484119539777_2_alg».proof.Proof.LibRowSum
import proofs.«155111_j81484119539777_2_alg».proof.Proof.LibColBroadcast
import proofs.«155111_j81484119539777_2_alg».proof.Proof.LibColumnCast
import Idealize.ShloMosaic.Lib.ValueLayout
import Idealize.ShloMosaic.PureOps.Ideal.Laws

noncomputable section

open scoped BigOperators

namespace Cert.KernelIdeal.BlockRow

open Cert.KernelIdeal Cert.KernelIdeal.Gen Idealize.ShloMosaic Idealize.ShloMosaic.ValueIdx Cert.EdgeUpdate

/-- The first layer's product of a block of rows with a 128 by 256 matrix, at row `p` and hidden channel `j`. -/
theorem first_at {φ₁ φ₂ : FTy} (x : FVec Ideal S4800x128 φ₁) (W : FVec Ideal S128x256 φ₂) (p : Fin 4800) (j : Fin 256) :
    matmul dot_S4800x128_S128x256_S4800x256_1_0_0_1_n_n none x W (constant (F := Ideal) S4800x256 .f32 0x00000000#32) (ix2 p j)
      = ∑ k : Fin 128, x (ix2 p k) * W (ix2 k j) :=
  MatmulAt.matmul_zero_ix2 dot_S4800x128_S128x256_S4800x256_1_0_0_1_n_n rfl rfl
    (fun i q => by
      unfold DotDims.lhsIdx
      rw [dif_neg (show ¬(0 : Fin S4800x128.rank) ∈ dot_S4800x128_S128x256_S4800x256_1_0_0_1_n_n.lhsBatch by decide),
        dif_pos (show (0 : Fin S4800x128.rank) ∈ dot_S4800x128_S128x256_S4800x256_1_0_0_1_n_n.lhsNonContracting by decide)]
      rfl)
    (fun i q => dot_S4800x128_S128x256_S4800x256_1_0_0_1_n_n.lhsIdx_val_of_single rfl i q)
    (fun i q => dot_S4800x128_S128x256_S4800x256_1_0_0_1_n_n.rhsIdx_val_of_single rfl i q)
    (fun i q => by
      unfold DotDims.rhsIdx
      rw [dif_neg (show ¬(1 : Fin S128x256.rank) ∈ dot_S4800x128_S128x256_S4800x256_1_0_0_1_n_n.rhsBatch by decide),
        dif_pos (show (1 : Fin S128x256.rank) ∈ dot_S4800x128_S128x256_S4800x256_1_0_0_1_n_n.rhsNonContracting by decide)]
      rfl)
    none x W p j

/-- The second layer's product of a block of hidden rows with a 256 by 128 matrix, at row `p` and channel `c`. -/
theorem second_at {φ₁ φ₂ : FTy} (y : FVec Ideal S4800x256 φ₁) (W : FVec Ideal S256x128 φ₂) (p : Fin 4800) (c : Fin 128) :
    matmul dot_S4800x256_S256x128_S4800x128_1_0_0_1_n_n none y W (constant (F := Ideal) S4800x128 .f32 0x00000000#32) (ix2 p c)
      = ∑ j : Fin 256, y (ix2 p j) * W (ix2 j c) :=
  MatmulAt.matmul_zero_ix2 dot_S4800x256_S256x128_S4800x128_1_0_0_1_n_n rfl rfl
    (fun i q => by
      unfold DotDims.lhsIdx
      rw [dif_neg (show ¬(0 : Fin S4800x256.rank) ∈ dot_S4800x256_S256x128_S4800x128_1_0_0_1_n_n.lhsBatch by decide),
        dif_pos (show (0 : Fin S4800x256.rank) ∈ dot_S4800x256_S256x128_S4800x128_1_0_0_1_n_n.lhsNonContracting by decide)]
      rfl)
    (fun i q => dot_S4800x256_S256x128_S4800x128_1_0_0_1_n_n.lhsIdx_val_of_single rfl i q)
    (fun i q => dot_S4800x256_S256x128_S4800x128_1_0_0_1_n_n.rhsIdx_val_of_single rfl i q)
    (fun i q => by
      unfold DotDims.rhsIdx
      rw [dif_neg (show ¬(1 : Fin S256x128.rank) ∈ dot_S4800x256_S256x128_S4800x128_1_0_0_1_n_n.rhsBatch by decide),
        dif_pos (show (1 : Fin S256x128.rank) ∈ dot_S4800x256_S256x128_S4800x128_1_0_0_1_n_n.rhsNonContracting by decide)]
      rfl)
    none y W p c

/-- The rectified first layer of a block, at row `p` and hidden channel `j`: the hidden layer of row `p`. -/
theorem hidden_at {φ₁ φ₂ : FTy} (x : FVec Ideal S4800x128 φ₁) (W : FVec Ideal S128x256 φ₂) (b : FVec Ideal S1x256 .f32)
    (p : Fin 4800) (j : Fin 256) :
    maximumf (addf (matmul dot_S4800x128_S128x256_S4800x256_1_0_0_1_n_n none x W (constant (F := Ideal) S4800x256 .f32 0x00000000#32))
        (broadcastTo S4800x256 b broadcasts_S1x256_S4800x256))
      (broadcast S4800x256 (Scalar.ofBits (F := Ideal) .f32 0x00000000#32)) (ix2 p j)
      = hidden (fun k j => W (ix2 k j)) (fun j => b (ix2 (0 : Fin 1) j)) (fun k => x (ix2 p k)) j := by
  show max (matmul dot_S4800x128_S128x256_S4800x256_1_0_0_1_n_n none x W (constant (F := Ideal) S4800x256 .f32 0x00000000#32) (ix2 p j)
      + broadcastTo S4800x256 b broadcasts_S1x256_S4800x256 (ix2 p j)) (Ideal.ofBits .f32 0x00000000#32) = _
  rw [first_at, broadcastTo_1b_ab_apply]
  rfl

/-- The first perceptron's result for a block, at row `p` and channel `c`. -/
theorem pay2_at (P1 : Vec Ideal S4800x128 .bf16) (P2 : Vec Ideal S128x256 .bf16) (P3 : Vec Ideal S1x256 .f32)
    (P4 : Vec Ideal S256x128 .bf16) (P5 : Vec Ideal S1x128 .f32) (p : Fin 4800) (c : Fin 128) :
    k0_pay2 P1 P2 P3 P4 P5 (ix2 p c)
      = mlp (fun k j => P2 (ix2 k j)) (fun j => P3 (ix2 (0 : Fin 1) j)) (fun j c => P4 (ix2 j c))
          (fun c => P5 (ix2 (0 : Fin 1) c)) (fun k => P1 (ix2 p k)) c := by
  unfold k0_pay2
  simp only [shapeCast_self]
  refine (addf_apply _ _ _).trans ?_
  rw [second_at, broadcastTo_1b_ab_apply]
  refine congrArg (· + P5 (ix2 (0 : Fin 1) c)) (Finset.sum_congr rfl fun j _ => ?_)
  exact congrArg (· * P4 (ix2 j c)) (hidden_at P1 P2 P3 p j)

/-- The second perceptron's product for a block, before its last bias, at row `p` and channel `c`. -/
theorem pay3_at (P0 : Vec Ideal S4800x128 .f32) (P6 : Vec Ideal S128x256 .bf16) (P7 : Vec Ideal S1x256 .f32)
    (P8 : Vec Ideal S256x128 .bf16) (p : Fin 4800) (c : Fin 128) :
    k0_pay3 P0 P6 P7 P8 (ix2 p c)
      = project (fun j c => P8 (ix2 j c))
          (hidden (fun k j => P6 (ix2 k j)) (fun j => P7 (ix2 (0 : Fin 1) j)) (fun k => P0 (ix2 p k))) c := by
  unfold k0_pay3
  simp only [shapeCast_self]
  rw [second_at]
  refine Finset.sum_congr rfl fun j _ => ?_
  exact congrArg (· * P8 (ix2 j c)) (hidden_at (truncf .bf16 P0 bitsLt_bf16_f32) P6 P7 p j)

/-- A lane sum of a block whose row `p` is the row `h`: the sum of `h`. -/
theorem rowSum_of (H : FVec Ideal S4800x128 .f32) (p : Fin 4800) (h : Fin 128 → EReal) (hH : ∀ c, H (ix2 p c) = h c) :
    multiReduction .add [1] S4800 H 0x00000000#32 reduces_S4800x128_S4800 (.inl rfl) rfl (ix1 p) = ∑ c : Fin 128, h c :=
  (Cert.LibRowSum.laneSum_row H reduces_S4800x128_S4800 (.inl rfl) rfl p).trans (Finset.sum_congr rfl fun c _ => hH c)

/-- A block less its rows' means spread back over the channels, at row `p`: the row `h` less its mean. -/
theorem centred_of (H : FVec Ideal S4800x128 .f32) (p : Fin 4800) (h : Fin 128 → EReal) (hH : ∀ c, H (ix2 p c) = h c)
    (c : Fin 128) :
    subf H (broadcastTo S4800x128 (divf (shapeCast S4800x1 (multiReduction .add [1] S4800 H 0x00000000#32 reduces_S4800x128_S4800 (.inl rfl) rfl) shapeCasts_S4800_S4800x1) (broadcast S4800x1 (Scalar.ofBits (F := Ideal) .f32 0x43000000#32))) broadcasts_S4800x1_S4800x128) (ix2 p c) = h c - mean h := by
  refine (subf_apply _ _ _).trans ?_
  rw [Cert.LibColBroadcast.broadcastTo_a1_ab_apply, hH]
  refine congrArg (h c - ·) ?_
  refine (divf_apply _ _ _).trans ?_
  rw [Cert.LibColumnCast.shapeCast_a_a1_apply, rowSum_of H p h hH]
  rfl

/-- The normalisation of a block at row `p`, channel `c`, given that row `p` of the block is the row `h`. -/
theorem norm_at (H : FVec Ideal S4800x128 .f32) (r hc : EReal) (p : Fin 4800) (c : Fin 128) (h : Fin 128 → EReal)
    (hH : ∀ c, H (ix2 p c) = h c) (hhc : hc = h c) :
    FloatOps.addf (F := Ideal) (φ := .f32) r (FloatOps.maximumf (FloatOps.mulf (FloatOps.subf hc (FloatOps.divf ((multiReduction .add [1] S4800 H 0x00000000#32 reduces_S4800x128_S4800 (.inl rfl) rfl) (ix1 p)) (Scalar.ofBits .f32 0x43000000#32))) (FloatOps.rsqrt (FloatOps.addf (FloatOps.divf ((multiReduction .add [1] S4800 (mulf (subf H (broadcastTo S4800x128 (divf (shapeCast S4800x1 (multiReduction .add [1] S4800 H 0x00000000#32 reduces_S4800x128_S4800 (.inl rfl) rfl) shapeCasts_S4800_S4800x1) (broadcast S4800x1 (Scalar.ofBits (F := Ideal) .f32 0x43000000#32))) broadcasts_S4800x1_S4800x128)) (subf H (broadcastTo S4800x128 (divf (shapeCast S4800x1 (multiReduction .add [1] S4800 H 0x00000000#32 reduces_S4800x128_S4800 (.inl rfl) rfl) shapeCasts_S4800_S4800x1) (broadcast S4800x1 (Scalar.ofBits (F := Ideal) .f32 0x43000000#32))) broadcasts_S4800x1_S4800x128))) 0x00000000#32 reduces_S4800x128_S4800 (.inl rfl) rfl) (ix1 p)) (Scalar.ofBits .f32 0x43000000#32)) (Scalar.ofBits .f32 0x3727C5AC#32)))) (Scalar.ofBits .f32 0x00000000#32))
      = r + normRelu h c := by
  subst hhc
  rw [rowSum_of H p h hH, rowSum_of (mulf (subf H (broadcastTo S4800x128 (divf (shapeCast S4800x1 (multiReduction .add [1] S4800 H 0x00000000#32 reduces_S4800x128_S4800 (.inl rfl) rfl) shapeCasts_S4800_S4800x1) (broadcast S4800x1 (Scalar.ofBits (F := Ideal) .f32 0x43000000#32))) broadcasts_S4800x1_S4800x128)) (subf H (broadcastTo S4800x128 (divf (shapeCast S4800x1 (multiReduction .add [1] S4800 H 0x00000000#32 reduces_S4800x128_S4800 (.inl rfl) rfl) shapeCasts_S4800_S4800x1) (broadcast S4800x1 (Scalar.ofBits (F := Ideal) .f32 0x43000000#32))) broadcasts_S4800x1_S4800x128))) p
    (fun c' => (h c' - mean h) * (h c' - mean h)) (fun c' => by
      refine (mulf_apply _ _ _).trans ?_
      rw [centred_of H p h hH c'])]
  rfl

/-- Row `p` of the two perceptrons' results added, for a block: the combined row of the block's row `p`. -/
theorem combined_at (P0 : Vec Ideal S4800x128 .f32) (P1 : Vec Ideal S4800x128 .bf16) (P2 : Vec Ideal S128x256 .bf16) (P3 : Vec Ideal S1x256 .f32) (P4 : Vec Ideal S256x128 .bf16) (P5 : Vec Ideal S1x128 .f32) (P6 : Vec Ideal S128x256 .bf16) (P7 : Vec Ideal S1x256 .f32) (P8 : Vec Ideal S256x128 .bf16) (P9 : Vec Ideal S1x128 .f32) (p : Fin 4800) (c : Fin 128) :
    (addf (k0_pay2 P1 P2 P3 P4 P5) (addf (k0_pay3 P0 P6 P7 P8) (broadcastTo S4800x128 (shapeCast S1x128 P9 shapeCasts_S1x128_S1x128) broadcasts_S1x128_S4800x128))) (ix2 p c)
      = combined (fun k j => P2 (ix2 k j)) (fun j => P3 (ix2 (0 : Fin 1) j)) (fun j c => P4 (ix2 j c)) (fun c => P5 (ix2 (0 : Fin 1) c))
      (fun k j => P6 (ix2 k j)) (fun j => P7 (ix2 (0 : Fin 1) j)) (fun j c => P8 (ix2 j c)) (fun c => P9 (ix2 (0 : Fin 1) c)) (fun k => P1 (ix2 p k)) (fun k => P0 (ix2 p k)) c := by
  refine (addf_apply _ _ _).trans ?_
  rw [pay2_at]
  refine congrArg (mlp (fun k j => P2 (ix2 k j)) (fun j => P3 (ix2 (0 : Fin 1) j)) (fun j c => P4 (ix2 j c))
    (fun c => P5 (ix2 (0 : Fin 1) c)) (fun k => P1 (ix2 p k)) c + ·) ?_
  refine (addf_apply _ _ _).trans ?_
  rw [pay3_at, broadcastTo_1b_ab_apply, shapeCast_self]
  rfl

/-- WHAT THE BODY LEAVES in its block at row `p`, channel `c`: the edge update of row `p` of the two input blocks. -/
theorem block_at (P0 : Vec Ideal S4800x128 .f32) (P1 : Vec Ideal S4800x128 .bf16) (P2 : Vec Ideal S128x256 .bf16) (P3 : Vec Ideal S1x256 .f32) (P4 : Vec Ideal S256x128 .bf16) (P5 : Vec Ideal S1x128 .f32) (P6 : Vec Ideal S128x256 .bf16) (P7 : Vec Ideal S1x256 .f32) (P8 : Vec Ideal S256x128 .bf16) (P9 : Vec Ideal S1x128 .f32) (p : Fin 4800) (c : Fin 128) :
    Value.E10 P0 P1 P2 P3 P4 P5 P6 P7 P8 P9 (ix2 p c)
      = edgeOut (fun k j => P2 (ix2 k j)) (fun j => P3 (ix2 (0 : Fin 1) j)) (fun j c => P4 (ix2 j c)) (fun c => P5 (ix2 (0 : Fin 1) c))
      (fun k j => P6 (ix2 k j)) (fun j => P7 (ix2 (0 : Fin 1) j)) (fun j c => P8 (ix2 j c)) (fun c => P9 (ix2 (0 : Fin 1) c)) (fun k => P1 (ix2 p k)) (fun k => P0 (ix2 p k)) c := by
  have i0 : Value.ix10_0 (ix2 p c) = ix2 p c := funext fun a => Fin.ext (by
    match a with
    | ⟨0, _⟩ => rfl
    | ⟨1, _⟩ => rfl)
  have i1 : Value.ix10_1 (ix2 p c) = ix2 p c := funext fun a => Fin.ext (by
    match a with
    | ⟨0, _⟩ => rfl
    | ⟨1, _⟩ => rfl)
  have i2 : Value.ix10_2 (ix2 p c) = ix2 p c := funext fun a => Fin.ext (by
    match a with
    | ⟨0, _⟩ => rfl
    | ⟨1, _⟩ => rfl)
  have i3 : Value.ix10_3 (ix2 p c) = ix2 (0 : Fin 1) c := funext fun a => Fin.ext (by
    match a with
    | ⟨0, _⟩ => rfl
    | ⟨1, _⟩ => rfl)
  have i4 : Value.ix10_4 (ix2 p c) = ix1 p := funext fun a => Fin.ext (by
    match a with
    | ⟨0, _⟩ => rfl)
  have i5 : Value.ix10_5 (ix2 p c) = ix1 p := funext fun a => Fin.ext (by
    match a with
    | ⟨0, _⟩ => rfl)
  dsimp only [Value.E10]
  rw [i0, i1, i2, i3, i4, i5]
  refine norm_at (addf (k0_pay2 P1 P2 P3 P4 P5) (addf (k0_pay3 P0 P6 P7 P8) (broadcastTo S4800x128 (shapeCast S1x128 P9 shapeCasts_S1x128_S1x128) broadcasts_S1x128_S4800x128))) (P0 (ix2 p c)) _ p c _ (fun c' => combined_at P0 P1 P2 P3 P4 P5 P6 P7 P8 P9 p c') ?_
  rw [pay2_at, pay3_at]
  rfl

end Cert.KernelIdeal.BlockRow

end
-- ==== Proof.KernelArray.lean ====
/-
  From blocks to the array: after the kernel's run its result array holds, at edge `e` and channel `c`, the edge
  update of row `e` of the summed node features and row `e` of the edge features.

  The grid has 125 points; point `t` works on the 4800 rows from `4800 · t` of the two edge-indexed arrays and writes
  the same rows of the result, while the eight matrices and bias rows are taken whole at every point. So what point `t`
  writes back is block `t` of ONE whole-array function, and the 125 blocks tile the 600000 rows.
-/
import proofs.«155111_j81484119539777_2_alg».proof.Proof.KernelRow
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.EdgeUpdate
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two edge-indexed inputs move with the result: at point `t` all three take the block of rows the result takes,
    all 128 channels of it, and that block index is at most 124. -/
theorem row_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 124 :=
  (by decide +kernel : ∀ t : Fin grid0.N, _)

/-- The matrices and bias rows are taken whole at every point. -/
theorem whole_facts : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every one of the 125 row blocks is some point's. -/
theorem row_onto : ∀ q : Fin 125, ∃ t : Fin cfg0.N, win0_10.index t (0 : Fin 2) = q.val :=
  (by decide +kernel : ∀ q : Fin 125, ∃ t : Fin grid0.N, win0_10.index t (0 : Fin 2) = q.val)

/-- What the result array ends holding: at `(e, c)` the edge update of row `e` of the arrays the region finds. -/
def final (c : Dev nD) : S600000x128.Idx → EReal := fun i =>
  edgeOut (fun k j => (V m c main_v20 : S128x256.Idx → EReal) (ix2 k j)) (fun j => (V m c main_v24 : S1x256.Idx → EReal) (ix2 (0 : Fin 1) j))
    (fun j c' => (V m c main_v21 : S256x128.Idx → EReal) (ix2 j c')) (fun c' => (V m c main_v25 : S1x128.Idx → EReal) (ix2 (0 : Fin 1) c'))
    (fun k j => (V m c main_v22 : S128x256.Idx → EReal) (ix2 k j)) (fun j => (V m c main_v26 : S1x256.Idx → EReal) (ix2 (0 : Fin 1) j))
    (fun j c' => (V m c main_v23 : S256x128.Idx → EReal) (ix2 j c')) (fun c' => (V m c main_v27 : S1x128.Idx → EReal) (ix2 (0 : Fin 1) c'))
    (fun k => (V m c main_v19 : S600000x128.Idx → EReal) (ix2 (i 0 : Fin 600000) k)) (fun k => (V m c main_arg1 : S600000x128.Idx → EReal) (ix2 (i 0 : Fin 600000) k)) (i 1 : Fin 128)

theorem final_apply (c : Dev nD) (i : S600000x128.Idx) :
    final m c i = edgeOut (fun k j => (V m c main_v20 : S128x256.Idx → EReal) (ix2 k j)) (fun j => (V m c main_v24 : S1x256.Idx → EReal) (ix2 (0 : Fin 1) j))
    (fun j c' => (V m c main_v21 : S256x128.Idx → EReal) (ix2 j c')) (fun c' => (V m c main_v25 : S1x128.Idx → EReal) (ix2 (0 : Fin 1) c'))
    (fun k j => (V m c main_v22 : S128x256.Idx → EReal) (ix2 k j)) (fun j => (V m c main_v26 : S1x256.Idx → EReal) (ix2 (0 : Fin 1) j))
    (fun j c' => (V m c main_v23 : S256x128.Idx → EReal) (ix2 j c')) (fun c' => (V m c main_v27 : S1x128.Idx → EReal) (ix2 (0 : Fin 1) c'))
    (fun k => (V m c main_v19 : S600000x128.Idx → EReal) (ix2 (i 0 : Fin 600000) k)) (fun k => (V m c main_arg1 : S600000x128.Idx → EReal) (ix2 (i 0 : Fin 600000) k)) (i 1 : Fin 128) := rfl

/-- Window 2's block is its whole array at every point. -/
theorem read2 (c : Dev nD) (t : Fin cfg0.N) (p : Fin 128) (q : Fin 256) :
    (iblk m c 2 t : S128x256.Idx → EReal) (ix2 p q) = (V m c main_v20 : S128x256.Idx → EReal) (ix2 p q) := by
  have e0 : win0_2.index t (0 : Fin 2) = 0 := (whole_facts t).1
  have e1 : win0_2.index t (1 : Fin 2) = 0 := (whole_facts t).2.1
  show (V m c main_v20 : S128x256.Idx → EReal) (((cfg0.win 2).blk t).view.emb (ix2 p q)) = _
  refine congrArg _ (funext fun a => Fin.ext ?_)
  match a with
  | ⟨0, _⟩ => show win0_2.index t (0 : Fin 2) * 128 + 1 * p.val = p.val; omega
  | ⟨1, _⟩ => show win0_2.index t (1 : Fin 2) * 256 + 1 * q.val = q.val; omega

/-- Window 3's block is its whole array at every point. -/
theorem read3 (c : Dev nD) (t : Fin cfg0.N) (p : Fin 1) (q : Fin 256) :
    (iblk m c 3 t : S1x256.Idx → EReal) (ix2 p q) = (V m c main_v24 : S1x256.Idx → EReal) (ix2 p q) := by
  have e0 : win0_3.index t (0 : Fin 2) = 0 := (whole_facts t).2.2.1
  have e1 : win0_3.index t (1 : Fin 2) = 0 := (whole_facts t).2.2.2.1
  show (V m c main_v24 : S1x256.Idx → EReal) (((cfg0.win 3).blk t).view.emb (ix2 p q)) = _
  refine congrArg _ (funext fun a => Fin.ext ?_)
  match a with
  | ⟨0, _⟩ => show win0_3.index t (0 : Fin 2) * 1 + 1 * p.val = p.val; omega
  | ⟨1, _⟩ => show win0_3.index t (1 : Fin 2) * 256 + 1 * q.val = q.val; omega

/-- Window 4's block is its whole array at every point. -/
theorem read4 (c : Dev nD) (t : Fin cfg0.N) (p : Fin 256) (q : Fin 128) :
    (iblk m c 4 t : S256x128.Idx → EReal) (ix2 p q) = (V m c main_v21 : S256x128.Idx → EReal) (ix2 p q) := by
  have e0 : win0_4.index t (0 : Fin 2) = 0 := (whole_facts t).2.2.2.2.1
  have e1 : win0_4.index t (1 : Fin 2) = 0 := (whole_facts t).2.2.2.2.2.1
  show (V m c main_v21 : S256x128.Idx → EReal) (((cfg0.win 4).blk t).view.emb (ix2 p q)) = _
  refine congrArg _ (funext fun a => Fin.ext ?_)
  match a with
  | ⟨0, _⟩ => show win0_4.index t (0 : Fin 2) * 256 + 1 * p.val = p.val; omega
  | ⟨1, _⟩ => show win0_4.index t (1 : Fin 2) * 128 + 1 * q.val = q.val; omega

/-- Window 5's block is its whole array at every point. -/
theorem read5 (c : Dev nD) (t : Fin cfg0.N) (p : Fin 1) (q : Fin 128) :
    (iblk m c 5 t : S1x128.Idx → EReal) (ix2 p q) = (V m c main_v25 : S1x128.Idx → EReal) (ix2 p q) := by
  have e0 : win0_5.index t (0 : Fin 2) = 0 := (whole_facts t).2.2.2.2.2.2.1
  have e1 : win0_5.index t (1 : Fin 2) = 0 := (whole_facts t).2.2.2.2.2.2.2.1
  show (V m c main_v25 : S1x128.Idx → EReal) (((cfg0.win 5).blk t).view.emb (ix2 p q)) = _
  refine congrArg _ (funext fun a => Fin.ext ?_)
  match a with
  | ⟨0, _⟩ => show win0_5.index t (0 : Fin 2) * 1 + 1 * p.val = p.val; omega
  | ⟨1, _⟩ => show win0_5.index t (1 : Fin 2) * 128 + 1 * q.val = q.val; omega

/-- Window 6's block is its whole array at every point. -/
theorem read6 (c : Dev nD) (t : Fin cfg0.N) (p : Fin 128) (q : Fin 256) :
    (iblk m c 6 t : S128x256.Idx → EReal) (ix2 p q) = (V m c main_v22 : S128x256.Idx → EReal) (ix2 p q) := by
  have e0 : win0_6.index t (0 : Fin 2) = 0 := (whole_facts t).2.2.2.2.2.2.2.2.1
  have e1 : win0_6.index t (1 : Fin 2) = 0 := (whole_facts t).2.2.2.2.2.2.2.2.2.1
  show (V m c main_v22 : S128x256.Idx → EReal) (((cfg0.win 6).blk t).view.emb (ix2 p q)) = _
  refine congrArg _ (funext fun a => Fin.ext ?_)
  match a with
  | ⟨0, _⟩ => show win0_6.index t (0 : Fin 2) * 128 + 1 * p.val = p.val; omega
  | ⟨1, _⟩ => show win0_6.index t (1 : Fin 2) * 256 + 1 * q.val = q.val; omega

/-- Window 7's block is its whole array at every point. -/
theorem read7 (c : Dev nD) (t : Fin cfg0.N) (p : Fin 1) (q : Fin 256) :
    (iblk m c 7 t : S1x256.Idx → EReal) (ix2 p q) = (V m c main_v26 : S1x256.Idx → EReal) (ix2 p q) := by
  have e0 : win0_7.index t (0 : Fin 2) = 0 := (whole_facts t).2.2.2.2.2.2.2.2.2.2.1
  have e1 : win0_7.index t (1 : Fin 2) = 0 := (whole_facts t).2.2.2.2.2.2.2.2.2.2.2.1
  show (V m c main_v26 : S1x256.Idx → EReal) (((cfg0.win 7).blk t).view.emb (ix2 p q)) = _
  refine congrArg _ (funext fun a => Fin.ext ?_)
  match a with
  | ⟨0, _⟩ => show win0_7.index t (0 : Fin 2) * 1 + 1 * p.val = p.val; omega
  | ⟨1, _⟩ => show win0_7.index t (1 : Fin 2) * 256 + 1 * q.val = q.val; omega

/-- Window 8's block is its whole array at every point. -/
theorem read8 (c : Dev nD) (t : Fin cfg0.N) (p : Fin 256) (q : Fin 128) :
    (iblk m c 8 t : S256x128.Idx → EReal) (ix2 p q) = (V m c main_v23 : S256x128.Idx → EReal) (ix2 p q) := by
  have e0 : win0_8.index t (0 : Fin 2) = 0 := (whole_facts t).2.2.2.2.2.2.2.2.2.2.2.2.1
  have e1 : win0_8.index t (1 : Fin 2) = 0 := (whole_facts t).2.2.2.2.2.2.2.2.2.2.2.2.2.1
  show (V m c main_v23 : S256x128.Idx → EReal) (((cfg0.win 8).blk t).view.emb (ix2 p q)) = _
  refine congrArg _ (funext fun a => Fin.ext ?_)
  match a with
  | ⟨0, _⟩ => show win0_8.index t (0 : Fin 2) * 256 + 1 * p.val = p.val; omega
  | ⟨1, _⟩ => show win0_8.index t (1 : Fin 2) * 128 + 1 * q.val = q.val; omega

/-- Window 9's block is its whole array at every point. -/
theorem read9 (c : Dev nD) (t : Fin cfg0.N) (p : Fin 1) (q : Fin 128) :
    (iblk m c 9 t : S1x128.Idx → EReal) (ix2 p q) = (V m c main_v27 : S1x128.Idx → EReal) (ix2 p q) := by
  have e0 : win0_9.index t (0 : Fin 2) = 0 := (whole_facts t).2.2.2.2.2.2.2.2.2.2.2.2.2.2.1
  have e1 : win0_9.index t (1 : Fin 2) = 0 := (whole_facts t).2.2.2.2.2.2.2.2.2.2.2.2.2.2.2
  show (V m c main_v27 : S1x128.Idx → EReal) (((cfg0.win 9).blk t).view.emb (ix2 p q)) = _
  refine congrArg _ (funext fun a => Fin.ext ?_)
  match a with
  | ⟨0, _⟩ => show win0_9.index t (0 : Fin 2) * 1 + 1 * p.val = p.val; omega
  | ⟨1, _⟩ => show win0_9.index t (1 : Fin 2) * 128 + 1 * q.val = q.val; omega

/-- The block of summed node features at point `t`: the rows the result's block takes. -/
theorem read0 (c : Dev nD) (t : Fin cfg0.N) (y : ((cfg0.win 10).xblock (grid0.coords t)).Idx) (k : Fin 128) :
    (iblk m c 0 t : S4800x128.Idx → EReal) (ix2 ((cfg0.win 10).xinj (grid0.coords t) y 0 : Fin 4800) k)
      = (V m c main_v19 : S600000x128.Idx → EReal) (ix2 ((((cfg0.win 10).blk t).view.emb y) 0 : Fin 600000) k) := by
  obtain ⟨e0, e1, -, -, -, -⟩ := row_facts t
  show (V m c main_v19 : S600000x128.Idx → EReal) (((cfg0.win 0).blk t).view.emb (ix2 ((cfg0.win 10).xinj (grid0.coords t) y 0 : Fin 4800) k)) = _
  refine congrArg _ (funext fun a => Fin.ext ?_)
  match a with
  | ⟨0, _⟩ => show win0_0.index t (0 : Fin 2) * 4800 + 1 * (y 0).val = win0_10.index t (0 : Fin 2) * 4800 + 1 * (y 0).val; omega
  | ⟨1, _⟩ => show win0_0.index t (1 : Fin 2) * 128 + 1 * k.val = k.val; omega

/-- The block of edge features at point `t`: the same rows. -/
theorem read1 (c : Dev nD) (t : Fin cfg0.N) (y : ((cfg0.win 10).xblock (grid0.coords t)).Idx) (k : Fin 128) :
    (iblk m c 1 t : S4800x128.Idx → EReal) (ix2 ((cfg0.win 10).xinj (grid0.coords t) y 0 : Fin 4800) k)
      = (V m c main_arg1 : S600000x128.Idx → EReal) (ix2 ((((cfg0.win 10).blk t).view.emb y) 0 : Fin 600000) k) := by
  obtain ⟨-, -, e0, e1, -, -⟩ := row_facts t
  show (V m c main_arg1 : S600000x128.Idx → EReal) (((cfg0.win 1).blk t).view.emb (ix2 ((cfg0.win 10).xinj (grid0.coords t) y 0 : Fin 4800) k)) = _
  refine congrArg _ (funext fun a => Fin.ext ?_)
  match a with
  | ⟨0, _⟩ => show win0_1.index t (0 : Fin 2) * 4800 + 1 * (y 0).val = win0_10.index t (0 : Fin 2) * 4800 + 1 * (y 0).val; omega
  | ⟨1, _⟩ => show win0_1.index t (1 : Fin 2) * 128 + 1 * k.val = k.val; omega

/-- The canon of the body's one store, at a block index: the edge update of that row of the loaded blocks. -/
theorem point_at (P0 : Vec Ideal S4800x128 .f32) (P1 : Vec Ideal S4800x128 .bf16) (P2 : Vec Ideal S128x256 .bf16) (P3 : Vec Ideal S1x256 .f32) (P4 : Vec Ideal S256x128 .bf16) (P5 : Vec Ideal S1x128 .f32) (P6 : Vec Ideal S128x256 .bf16) (P7 : Vec Ideal S1x256 .f32) (P8 : Vec Ideal S256x128 .bf16) (P9 : Vec Ideal S1x128 .f32) (z : S4800x128.Idx) :
    View.canon ([⟨r0_0, k0_pay1 P0 (k0_pay2 P1 P2 P3 P4 P5) (k0_pay3 P0 P6 P7 P8) P9⟩] : List (View.Piece (Elt Ideal) S4800x128 .f32)) z
      = edgeOut (fun k j => P2 (ix2 k j)) (fun j => P3 (ix2 (0 : Fin 1) j)) (fun j c => P4 (ix2 j c)) (fun c => P5 (ix2 (0 : Fin 1) c))
      (fun k j => P6 (ix2 k j)) (fun j => P7 (ix2 (0 : Fin 1) j)) (fun j c => P8 (ix2 j c)) (fun c => P9 (ix2 (0 : Fin 1) c)) (fun k => P1 (ix2 (z 0 : Fin 4800) k)) (fun k => P0 (ix2 (z 0 : Fin 4800) k)) (z 1 : Fin 128) := by
  rw [Value.canon10_eq]
  obtain ⟨p, q, rfl⟩ : ∃ (p : Fin 4800) (q : Fin 128), z = ix2 p q := ⟨z 0, z 1, eq_ix2 z⟩
  exact BlockRow.block_at P0 P1 P2 P3 P4 P5 P6 P7 P8 P9 p q

/-- WHAT POINT `t` WRITES BACK is block `t` of `final`. -/
theorem flushed_eq (c : Dev nD) (t : Fin cfg0.N) :
    (dats m 0 c).flushed 10 t = ((cfg0.win 10).blk t).view.read (Elt Ideal) (final m c) := by
  rw [Value.flushed10]
  unfold out0_10
  simp only [View.ld_unit_zero (S := S4800x128) hz, View.ld_unit_zero (S := S128x256) hz, View.ld_unit_zero (S := S1x256) hz, View.ld_unit_zero (S := S256x128) hz, View.ld_unit_zero (S := S1x128) hz]
  funext y
  refine (point_at (iblk m c 1 t) (iblk m c 0 t) (iblk m c 2 t) (iblk m c 3 t) (iblk m c 4 t) (iblk m c 5 t) (iblk m c 6 t) (iblk m c 7 t) (iblk m c 8 t) (iblk m c 9 t) ((cfg0.win 10).xinj (grid0.coords t) y)).trans ?_
  show _ = final m c (((cfg0.win 10).blk t).view.emb y)
  rw [final_apply]
  obtain ⟨-, -, -, -, e1, -⟩ := row_facts t
  refine edgeOut_congr (funext fun k => funext fun j => read2 m c t k j) (funext fun j => read3 m c t 0 j)
    (funext fun j => funext fun c' => read4 m c t j c') (funext fun c' => read5 m c t 0 c')
    (funext fun k => funext fun j => read6 m c t k j) (funext fun j => read7 m c t 0 j)
    (funext fun j => funext fun c' => read8 m c t j c') (funext fun c' => read9 m c t 0 c')
    (funext fun k => read0 m c t y k) (funext fun k => read1 m c t y k) (Fin.ext ?_)
  show (y 1).val = win0_10.index t (1 : Fin 2) * 128 + 1 * (y 1).val
  omega

/-- An index of the result array is in point `t`'s block iff each coordinate is in the block's range on its axis. -/
theorem mem_blk (t : Fin cfg0.N) (i : S600000x128.Idx) :
    i ∈ ((cfg0.win 10).blk t).view.set ↔ ∀ a : Fin 2, win0_10.index t a * S4800x128.size a ≤ (i a).val ∧ (i a).val < win0_10.index t a * S4800x128.size a + S4800x128.size a := by
  show i ∈ ((View.whole main_v28).slice (win0_10.rect t)).set ↔ _
  rw [View.set_slice_whole, Rect.mem_set_unit]
  exact Iff.rfl

/-- The 125 blocks of 4800 rows tile the array: row `e` is in the block of point `e / 4800`. -/
theorem cover (i : S600000x128.Idx) :
    ∃ t : Fin cfg0.N, (cfg0.win 10).flush t = true ∧ i ∈ ((cfg0.win 10).blk t).view.set := by
  have hi0 : (i 0).val < 600000 := (i 0).isLt
  have hi1 : (i 1).val < 128 := (i 1).isLt
  obtain ⟨t, ht⟩ := row_onto ⟨(i 0).val / 4800, by omega⟩
  obtain ⟨-, -, -, -, e1, -⟩ := row_facts t
  have hq : win0_10.index t (0 : Fin 2) = (i 0).val / 4800 := ht
  refine ⟨t, flush0_10 t, ?_⟩
  rw [mem_blk]
  intro a
  match a with
  | ⟨0, _⟩ => show win0_10.index t (0 : Fin 2) * 4800 ≤ (i 0).val ∧ (i 0).val < win0_10.index t (0 : Fin 2) * 4800 + 4800; omega
  | ⟨1, _⟩ => show win0_10.index t (1 : Fin 2) * 128 ≤ (i 1).val ∧ (i 1).val < win0_10.index t (1 : Fin 2) * 128 + 128; omega

/-- THE ARRAY after the run. -/
theorem final_eq (c : Dev nD) : (dats m 0 c).arrAt 10 cfg0.N = final m c :=
  (dats m 0 c).arrAt_eq_of_cover 10 (final m c) (fun t _ => flushed_eq m c t) (fun i => cover i)

/-- The kernel's run with its result array named. -/
theorem run : θ_run defs (onTc (τ := τ) (main (F := Ideal))) ⟨m, fun _ => 0, ρ⟩ fun r => ∀ c : Dev nD,
      r.2.mem ((c : Thread nD τ).loc main_v28) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_eq m c), (h c).2⟩) (Value.run_blocks m ρ)

end Cert.KernelIdeal.Whole

end
-- ==== Proof.RefRow.lean ====
/-
  The reference program, read one edge at a time: its result at edge `e` and channel `c` is the edge update of
  row `e` of the summed node features and row `e` of the edge features.

  The reference computes on whole arrays: two matrix products per perceptron, biases spread over the rows, two sums along
  the channels. Each stage read at an index is its operands at indices computed from the literal shapes; at the ideal
  instance a matrix product is the sum over the contracted coordinate and a sum along the channels its initial value,
  the zero word, plus the sum of the row.
-/
import proofs.«155111_j81484119539777_2_alg».proof.Proof.Gen.ReferenceIdeal.Read
import proofs.«155111_j81484119539777_2_alg».proof.Proof.EdgeUpdate
import Idealize.ShloMosaic.PureOps.Ideal.Laws

noncomputable section

open scoped BigOperators

namespace Cert.ReferenceIdeal.RowRead

open Cert.ReferenceIdeal Cert.ReferenceIdeal.Read Idealize.ShloMosaic Idealize.ShloMosaic.ValueIdx Cert.EdgeUpdate

variable (x0 : (⟨S50000x128, .f32⟩ : BufTy).Contents (Elt Ideal)) (x1 : (⟨S600000x128, .f32⟩ : BufTy).Contents (Elt Ideal))
  (x2 : (⟨S2x600000, .i32⟩ : BufTy).Contents (Elt Ideal)) (x3 : (⟨S128x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal))

/-- Row `e` of the summed node features, as the reference forms them. -/
abbrev nodeRow (e : Fin 600000) : Fin 128 → EReal := fun k => val_main_v18 (F := Ideal) x0 x2 (ix2 e k)

/-- The combined row of edge `e` over the reference's arrays. -/
abbrev refRow (e : Fin 600000) : Fin 128 → EReal :=
  combined (fun k j => x3 (ix2 k j)) (fun j => x4 (ix1 j)) (fun j c => x5 (ix2 j c)) (fun c => x6 (ix1 c))
    (fun k j => x7 (ix2 k j)) (fun j => x8 (ix1 j)) (fun j c => x9 (ix2 j c)) (fun c => x10 (ix1 c))
    (nodeRow x0 x2 e) (fun k => x1 (ix2 e k))

/-- The first perceptron's rectified hidden array at edge `e`, hidden channel `j`. -/
theorem hiddenA_at (e : Fin 600000) (j : Fin 256) :
    val_main_v24 (F := Ideal) x0 x2 x3 x4 (ix2 e j)
      = hidden (fun k j => x3 (ix2 k j)) (fun j => x4 (ix1 j)) (nodeRow x0 x2 e) j := by
  rw [val_main_v24_apply, val_main_v22_apply, val_main_v19_apply, val_main_v21_apply, val_main_v20_apply,
    val_main_v23_apply, val_main_cst_apply]
  have el : ∀ k, lidx_main_v19 (ix2 e j) k = ix2 e k := fun k => funext fun a => Fin.ext (by
    match a with
    | ⟨0, _⟩ => rfl
    | ⟨1, _⟩ => rfl)
  have er : ∀ k, ridx_main_v19 (ix2 e j) k = ix2 k j := fun k => funext fun a => Fin.ext (by
    match a with
    | ⟨0, _⟩ => rfl
    | ⟨1, _⟩ => rfl)
  have eb : idx_main_v20 (idx_main_v21 (ix2 e j)) = ix1 j := funext fun a => Fin.ext (by
    match a with
    | ⟨0, _⟩ => rfl)
  simp only [el, er, eb]
  rfl

/-- The second perceptron's rectified hidden array at edge `e`, hidden channel `j`. -/
theorem hiddenB_at (e : Fin 600000) (j : Fin 256) :
    val_main_v34 (F := Ideal) x1 x7 x8 (ix2 e j)
      = hidden (fun k j => x7 (ix2 k j)) (fun j => x8 (ix1 j)) (fun k => x1 (ix2 e k)) j := by
  rw [val_main_v34_apply, val_main_v32_apply, val_main_v29_apply, val_main_v31_apply, val_main_v30_apply,
    val_main_v33_apply, val_main_cst_3_apply]
  have el : ∀ k, lidx_main_v29 (ix2 e j) k = ix2 e k := fun k => funext fun a => Fin.ext (by
    match a with
    | ⟨0, _⟩ => rfl
    | ⟨1, _⟩ => rfl)
  have er : ∀ k, ridx_main_v29 (ix2 e j) k = ix2 k j := fun k => funext fun a => Fin.ext (by
    match a with
    | ⟨0, _⟩ => rfl
    | ⟨1, _⟩ => rfl)
  have eb : idx_main_v30 (idx_main_v31 (ix2 e j)) = ix1 j := funext fun a => Fin.ext (by
    match a with
    | ⟨0, _⟩ => rfl)
  simp only [el, er, eb]
  rfl

/-- The first perceptron's result at edge `e`, channel `c`. -/
theorem mlpA_at (e : Fin 600000) (c : Fin 128) :
    val_main_v28 (F := Ideal) x0 x2 x3 x4 x5 x6 (ix2 e c)
      = mlp (fun k j => x3 (ix2 k j)) (fun j => x4 (ix1 j)) (fun j c => x5 (ix2 j c)) (fun c => x6 (ix1 c))
          (nodeRow x0 x2 e) c := by
  rw [val_main_v28_apply, val_main_v25_apply, val_main_v27_apply, val_main_v26_apply]
  have el : ∀ k, lidx_main_v25 (ix2 e c) k = ix2 e k := fun k => funext fun a => Fin.ext (by
    match a with
    | ⟨0, _⟩ => rfl
    | ⟨1, _⟩ => rfl)
  have er : ∀ k, ridx_main_v25 (ix2 e c) k = ix2 k c := fun k => funext fun a => Fin.ext (by
    match a with
    | ⟨0, _⟩ => rfl
    | ⟨1, _⟩ => rfl)
  have eb : idx_main_v26 (idx_main_v27 (ix2 e c)) = ix1 c := funext fun a => Fin.ext (by
    match a with
    | ⟨0, _⟩ => rfl)
  simp only [el, er, eb, hiddenA_at]
  rfl

/-- The second perceptron's result at edge `e`, channel `c`. -/
theorem mlpB_at (e : Fin 600000) (c : Fin 128) :
    val_main_v38 (F := Ideal) x1 x7 x8 x9 x10 (ix2 e c)
      = mlp (fun k j => x7 (ix2 k j)) (fun j => x8 (ix1 j)) (fun j c => x9 (ix2 j c)) (fun c => x10 (ix1 c))
          (fun k => x1 (ix2 e k)) c := by
  rw [val_main_v38_apply, val_main_v35_apply, val_main_v37_apply, val_main_v36_apply]
  have el : ∀ k, lidx_main_v35 (ix2 e c) k = ix2 e k := fun k => funext fun a => Fin.ext (by
    match a with
    | ⟨0, _⟩ => rfl
    | ⟨1, _⟩ => rfl)
  have er : ∀ k, ridx_main_v35 (ix2 e c) k = ix2 k c := fun k => funext fun a => Fin.ext (by
    match a with
    | ⟨0, _⟩ => rfl
    | ⟨1, _⟩ => rfl)
  have eb : idx_main_v36 (idx_main_v37 (ix2 e c)) = ix1 c := funext fun a => Fin.ext (by
    match a with
    | ⟨0, _⟩ => rfl)
  simp only [el, er, eb, hiddenB_at]
  rfl

/-- The two results added: the combined row. -/
theorem combined_at (e : Fin 600000) (c : Fin 128) :
    val_main_v39 (F := Ideal) x0 x1 x2 x3 x4 x5 x6 x7 x8 x9 x10 (ix2 e c) = refRow x0 x1 x2 x3 x4 x5 x6 x7 x8 x9 x10 e c := by
  rw [val_main_v39_apply, mlpA_at, mlpB_at]
  rfl

/-- The mean column at edge `e`: the mean of the combined row (the sum's initial zero drops out). -/
theorem mean_at (e : Fin 600000) :
    val_main_v43 (F := Ideal) x0 x1 x2 x3 x4 x5 x6 x7 x8 x9 x10 (ix2 e (0 : Fin 1)) = mean (refRow x0 x1 x2 x3 x4 x5 x6 x7 x8 x9 x10 e) := by
  rw [val_main_v43_apply, val_main_v41_apply, val_main_v40_apply, val_main_v42_apply, val_main_cst_5_apply,
    val_main_cst_4_apply]
  have ei : ∀ k, idx_main_v40 (idx_main_v41 (ix2 e (0 : Fin 1))) k = ix2 e k := fun k => funext fun a => Fin.ext (by
    match a with
    | ⟨0, _⟩ => rfl
    | ⟨1, _⟩ => rfl)
  simp only [ei, combined_at]
  show Ideal.div (Ideal.ofBits .f32 0x00000000#32 + ∑ k : Fin 128, refRow x0 x1 x2 x3 x4 x5 x6 x7 x8 x9 x10 e k) widthW = _
  rw [Ideal.ofBits_zero_f32, zero_add]
  rfl

/-- The centred array at edge `e`, channel `c`. -/
theorem centred_at (e : Fin 600000) (c : Fin 128) :
    val_main_v45 (F := Ideal) x0 x1 x2 x3 x4 x5 x6 x7 x8 x9 x10 (ix2 e c) = refRow x0 x1 x2 x3 x4 x5 x6 x7 x8 x9 x10 e c - mean (refRow x0 x1 x2 x3 x4 x5 x6 x7 x8 x9 x10 e) := by
  rw [val_main_v45_apply, val_main_v44_apply, combined_at]
  have ei : idx_main_v44 (ix2 e c) = ix2 e (0 : Fin 1) := funext fun a => Fin.ext (by
    match a with
    | ⟨0, _⟩ => rfl
    | ⟨1, _⟩ => rfl)
  rw [ei, mean_at]
  rfl

/-- The variance column at edge `e`: the mean of the squared centred row. -/
theorem var_at (e : Fin 600000) :
    val_main_v50 (F := Ideal) x0 x1 x2 x3 x4 x5 x6 x7 x8 x9 x10 (ix2 e (0 : Fin 1))
      = mean (fun c' => (refRow x0 x1 x2 x3 x4 x5 x6 x7 x8 x9 x10 e c' - mean (refRow x0 x1 x2 x3 x4 x5 x6 x7 x8 x9 x10 e)) * (refRow x0 x1 x2 x3 x4 x5 x6 x7 x8 x9 x10 e c' - mean (refRow x0 x1 x2 x3 x4 x5 x6 x7 x8 x9 x10 e))) := by
  rw [val_main_v50_apply, val_main_v48_apply, val_main_v47_apply, val_main_v49_apply, val_main_cst_7_apply,
    val_main_cst_6_apply]
  have ei : ∀ k, idx_main_v47 (idx_main_v48 (ix2 e (0 : Fin 1))) k = ix2 e k := fun k => funext fun a => Fin.ext (by
    match a with
    | ⟨0, _⟩ => rfl
    | ⟨1, _⟩ => rfl)
  simp only [ei, val_main_v46_apply, centred_at]
  show Ideal.div (Ideal.ofBits .f32 0x00000000#32 + ∑ k : Fin 128,
    (refRow x0 x1 x2 x3 x4 x5 x6 x7 x8 x9 x10 e k - mean (refRow x0 x1 x2 x3 x4 x5 x6 x7 x8 x9 x10 e)) * (refRow x0 x1 x2 x3 x4 x5 x6 x7 x8 x9 x10 e k - mean (refRow x0 x1 x2 x3 x4 x5 x6 x7 x8 x9 x10 e))) widthW = _
  rw [Ideal.ofBits_zero_f32, zero_add]
  rfl

/-- THE REFERENCE'S RESULT at edge `e`, channel `c`: the edge update of the two rows. -/
theorem result_at (e : Fin 600000) (c : Fin 128) :
    val_main_v60 (F := Ideal) x0 x1 x2 x3 x4 x5 x6 x7 x8 x9 x10 (ix2 e c)
      = edgeOut (fun k j => x3 (ix2 k j)) (fun j => x4 (ix1 j)) (fun j c => x5 (ix2 j c)) (fun c => x6 (ix1 c))
          (fun k j => x7 (ix2 k j)) (fun j => x8 (ix1 j)) (fun j c => x9 (ix2 j c)) (fun c => x10 (ix1 c))
          (nodeRow x0 x2 e) (fun k => x1 (ix2 e k)) c := by
  rw [val_main_v60_apply, val_main_v59_apply, val_main_v57_apply, val_main_v52_apply, val_main_v51_apply,
    val_main_v56_apply, val_main_v55_apply, val_main_v54_apply, val_main_v53_apply, val_main_cst_8_apply,
    val_main_v58_apply, val_main_cst_9_apply, combined_at]
  have e1 : idx_main_v51 (ix2 e c) = ix2 e (0 : Fin 1) := funext fun a => Fin.ext (by
    match a with
    | ⟨0, _⟩ => rfl
    | ⟨1, _⟩ => rfl)
  have e2 : idx_main_v56 (ix2 e c) = ix2 e (0 : Fin 1) := funext fun a => Fin.ext (by
    match a with
    | ⟨0, _⟩ => rfl
    | ⟨1, _⟩ => rfl)
  rw [e1, e2, mean_at, var_at]
  rfl

end Cert.ReferenceIdeal.RowRead

end
-- ==== Proof.Bridge.lean ====
/-
  The two programs compute one function of the arguments.

  Before its region the kernel's @main prepares the region's inputs from the arguments: the summed node features by the
  same gathers and sum the reference forms (then a change of float format, the identity on the extended reals), the four
  matrices by a change of format, the four biases as one-row arrays. Read at an entry each is the argument's entry, so
  the kernel's result array — the edge update over the region's inputs — is the reference's result, edge by edge.
-/
import proofs.«155111_j81484119539777_2_alg».proof.Proof.KernelArray
import proofs.«155111_j81484119539777_2_alg».proof.Proof.RefRow
import Idealize.ShloMosaic.Lib.StableHlo.Run
import Idealize.ShloMosaic.Lib.ValueLayout

noncomputable section

namespace Cert.KernelIdeal.Inputs

open Cert.KernelIdeal Cert.KernelIdeal.Gen Idealize.ShloMosaic Idealize.ShloMosaic.TcCoe Idealize.SL.Sem
open Idealize.ShloMosaic.ValueIdx Idealize.ShloMosaic.StableHlo Cert.EdgeUpdate

variable (m : (ℓ : Loc nD τ sig) → Buf (Elt Ideal) ℓ)

set_option maxHeartbeats 8000000 in
set_option maxRecDepth 8192 in
/-- The region's first input is the reference's summed node features: the same two gathers of the node table at the
    two rows of edge ends (negative indices wrapped), added; the change of float format after them is the identity. -/
theorem nodeSum_eq (c : Dev nD) :
    (V m c main_v19 : S600000x128.Idx → EReal)
      = Cert.ReferenceIdeal.Read.val_main_v18 (F := Ideal) (m ((c : Thread nD τ).loc main_arg0)) (m ((c : Thread nD τ).loc main_arg2)) := by
  dsimp only [Gen.V, Gen.hostOps0]
  after_results_simp
  rfl

/-- The four matrices reach the region as they were launched. -/
theorem w1a_eq (c : Dev nD) : (V m c main_v20 : S128x256.Idx → EReal) = (m ((c : Thread nD τ).loc main_arg3)) := by
  dsimp only [Gen.V, Gen.hostOps0]; after_results; rfl
theorem w2a_eq (c : Dev nD) : (V m c main_v21 : S256x128.Idx → EReal) = (m ((c : Thread nD τ).loc main_arg5)) := by
  dsimp only [Gen.V, Gen.hostOps0]; after_results; rfl
theorem w1b_eq (c : Dev nD) : (V m c main_v22 : S128x256.Idx → EReal) = (m ((c : Thread nD τ).loc main_arg7)) := by
  dsimp only [Gen.V, Gen.hostOps0]; after_results; rfl
theorem w2b_eq (c : Dev nD) : (V m c main_v23 : S256x128.Idx → EReal) = (m ((c : Thread nD τ).loc main_arg9)) := by
  dsimp only [Gen.V, Gen.hostOps0]; after_results; rfl

/-- The four biases reach the region laid down as one row each. -/
theorem b1a_at (c : Dev nD) (j : Fin 256) :
    (V m c main_v24 : S1x256.Idx → EReal) (ix2 (0 : Fin 1) j) = ((m ((c : Thread nD τ).loc main_arg4)) : S256.Idx → EReal) (ix1 j) := by
  have e : (V m c main_v24 : S1x256.Idx → EReal)
      = shapeCast S1x256 ((m ((c : Thread nD τ).loc main_arg4)) : S256.Idx → EReal) shapeCasts_S256_S1x256 := by
    dsimp only [Gen.V, Gen.hostOps0]; after_results; rfl
  rw [e]
  exact shapeCast_a_1a_apply _ _ 0 j
theorem b2a_at (c : Dev nD) (j : Fin 128) :
    (V m c main_v25 : S1x128.Idx → EReal) (ix2 (0 : Fin 1) j) = ((m ((c : Thread nD τ).loc main_arg6)) : S128.Idx → EReal) (ix1 j) := by
  have e : (V m c main_v25 : S1x128.Idx → EReal)
      = shapeCast S1x128 ((m ((c : Thread nD τ).loc main_arg6)) : S128.Idx → EReal) shapeCasts_S128_S1x128 := by
    dsimp only [Gen.V, Gen.hostOps0]; after_results; rfl
  rw [e]
  exact shapeCast_a_1a_apply _ _ 0 j
theorem b1b_at (c : Dev nD) (j : Fin 256) :
    (V m c main_v26 : S1x256.Idx → EReal) (ix2 (0 : Fin 1) j) = ((m ((c : Thread nD τ).loc main_arg8)) : S256.Idx → EReal) (ix1 j) := by
  have e : (V m c main_v26 : S1x256.Idx → EReal)
      = shapeCast S1x256 ((m ((c : Thread nD τ).loc main_arg8)) : S256.Idx → EReal) shapeCasts_S256_S1x256 := by
    dsimp only [Gen.V, Gen.hostOps0]; after_results; rfl
  rw [e]
  exact shapeCast_a_1a_apply _ _ 0 j
theorem b2b_at (c : Dev nD) (j : Fin 128) :
    (V m c main_v27 : S1x128.Idx → EReal) (ix2 (0 : Fin 1) j) = ((m ((c : Thread nD τ).loc main_arg10)) : S128.Idx → EReal) (ix1 j) := by
  have e : (V m c main_v27 : S1x128.Idx → EReal)
      = shapeCast S1x128 ((m ((c : Thread nD τ).loc main_arg10)) : S128.Idx → EReal) shapeCasts_S128_S1x128 := by
    dsimp only [Gen.V, Gen.hostOps0]; after_results; rfl
  rw [e]
  exact shapeCast_a_1a_apply _ _ 0 j

/-- THE REFERENCE'S RESULT of the arguments IS the array the kernel's run ends with. -/
theorem result_eq (c : Dev nD) :
    Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = Whole.final m c := by
  funext i
  obtain ⟨e, q, rfl⟩ : ∃ (e : Fin 600000) (q : Fin 128), i = ix2 e q := ⟨i 0, i 1, eq_ix2 i⟩
  rw [Cert.ReferenceIdeal.RowRead.result_at, Whole.final_apply]
  refine edgeOut_congr
    (funext fun k => funext fun j => (congrFun (w1a_eq m c) (ix2 k j)).symm)
    (funext fun j => (b1a_at m c j).symm)
    (funext fun j => funext fun c' => (congrFun (w2a_eq m c) (ix2 j c')).symm)
    (funext fun c' => (b2a_at m c c').symm)
    (funext fun k => funext fun j => (congrFun (w1b_eq m c) (ix2 k j)).symm)
    (funext fun j => (b1b_at m c j).symm)
    (funext fun j => funext fun c' => (congrFun (w2b_eq m c) (ix2 j c')).symm)
    (funext fun c' => (b2b_at m c c').symm)
    (funext fun k => (congrFun (nodeSum_eq m c) (ix2 e k)).symm)
    (funext fun k => (congrFun (V_main_arg1 m c) (ix2 e k)).symm)
    rfl

end Cert.KernelIdeal.Inputs

end
-- ==== Proof.lean ====
/-
  An edge update of a graph network: for each of 600000 edges, the sum of its two end nodes' feature rows and the
  edge's own feature row each pass through a two-layer perceptron (128 → 256 → 128 channels, a rectifier between the
  layers), the two results are added, the sum is normalised along its 128 channels (mean off, then the reciprocal
  square root of the biased variance plus a small constant), rectified, and added to the edge's features.

  The kernel forms the summed node features on the host exactly as the reference does, then works through the edges
  in 125 blocks of 4800 rows, the matrices and biases taken whole at every block; the reference computes on whole
  arrays. On the extended reals both are, at edge `e` and channel `c`, the function `EdgeUpdate.edgeOut` of row `e` of the
  two edge-indexed arrays: a matrix product is the sum over the contracted coordinate on both sides, a sum along the
  channels the sum of the row (the reference's starts from a zero that drops out), a change of float format the
  identity, and the two programs use the same three float constants. No law beyond `0 + x = x` is needed, so the
  inputs' finiteness is not used.

  `EdgeUpdate`   the function, on coordinates;           `KernelRow`    what the kernel body leaves in a block, at an entry;
  `KernelArray`  from the 125 blocks to the result array;  `RefRow`      the reference's result at an entry;
  `Bridge`       the region's inputs are the arguments', so the two results are one array.
  The three runs themselves (termination, no fault, arguments unchanged) are the generated frame and run modules'.
-/
import proofs.«155111_j81484119539777_2_alg».proof.Defs
import proofs.«155111_j81484119539777_2_alg».proof.Proof.Gen.Kernel
import proofs.«155111_j81484119539777_2_alg».proof.Proof.Gen.Kernel.Skeleton
import proofs.«155111_j81484119539777_2_alg».proof.Proof.Gen.Kernel.Launch
import proofs.«155111_j81484119539777_2_alg».proof.Proof.Gen.Kernel.Points
import proofs.«155111_j81484119539777_2_alg».proof.Proof.Gen.Kernel.Frame
import proofs.«155111_j81484119539777_2_alg».proof.Proof.Gen.KernelIdeal
import proofs.«155111_j81484119539777_2_alg».proof.Proof.Gen.KernelIdeal.Skeleton
import proofs.«155111_j81484119539777_2_alg».proof.Proof.Gen.KernelIdeal.Launch
import proofs.«155111_j81484119539777_2_alg».proof.Proof.Gen.KernelIdeal.Points
import proofs.«155111_j81484119539777_2_alg».proof.Proof.Gen.KernelIdeal.Frame
import proofs.«155111_j81484119539777_2_alg».proof.Proof.Gen.ReferenceIdeal
import proofs.«155111_j81484119539777_2_alg».proof.Proof.Gen.Pre_finite_inputs
import proofs.«155111_j81484119539777_2_alg».proof.Proof.Gen.KernelIdeal.Value
import proofs.«155111_j81484119539777_2_alg».proof.Proof.Gen.ReferenceIdeal.Run
import proofs.«155111_j81484119539777_2_alg».proof.Proof.Gen.ReferenceIdeal.Read
import proofs.«155111_j81484119539777_2_alg».proof.Proof.Bridge
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments the two programs end with one result array: the kernel's is the edge
    update over its region's inputs (`Whole.run`), the reference's its composed term of the arguments, and the two
    are equal entry by entry (`Inputs.result_eq`). -/
theorem algebraic : Cert.algebraic_KernelIdeal_ReferenceIdeal := by
  intro m ρ m' ρ' _ hagree
  refine ⟨fun c => Cert.KernelIdeal.Whole.final m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v60_eq, a0, a1, a2, a3, a4, a5, a6, a7, a8, a9, a10]
  exact Cert.KernelIdeal.Inputs.result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
